-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S131072x256 .f32) (main_arg1 : FVec F S131072x256 .f32) (main_arg2 : FVec F S256x256 .f32) (main_arg3 : FVec F S256 .f32) (main_arg4 : FVec F S256 .f32) (main_arg5 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S131072x256 : Shape := ⟨2, ![131072, 256]⟩
abbrev S256x256 : Shape := ⟨2, ![256, 256]⟩
abbrev S256 : Shape := ⟨1, ![256]⟩
abbrev S1x256 : Shape := ⟨2, ![1, 256]⟩
abbrev S4096x256 : Shape := ⟨2, ![4096, 256]⟩
abbrev S4096 : Shape := ⟨1, ![4096]⟩
abbrev S4096x1 : Shape := ⟨2, ![4096, 1]⟩

abbrev nBuf : Space → Nat
  | .hbm => 12
  | .vmem => 10
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256x256, .bf16⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S131072x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S256x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S4096x256, .f32⟩
  | .local _ .vmem, ⟨9, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S256x256_S256x256_1_0 : S256x256.Transposes [1, 0] S256x256
  bitsLt_bf16_f32 : FTy.bits .bf16 < FTy.bits .f32
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  reduces_S4096x256_S4096 : S4096x256.Reduces [1] S4096
  shapeCasts_S4096_S4096x1 : S4096.ShapeCasts S4096x1
  broadcasts_S4096x1_S4096x256 : S4096x1.Broadcasts S4096x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S131072x256.size a
  hwx0_6 : ∀ i : grid0.Coords, EltTy.bits .f32 = 32 ∨ (Rect.block (s := S131072x256) S4096x256.size (cc0_transform_6 i) (hinb0_6 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S4096x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S131072 : Shape := ⟨1, ![131072]⟩
abbrev S131072x1 : Shape := ⟨2, ![131072, 1]⟩

abbrev nBuf : Space → Nat
  | .hbm => 41
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S131072x256, .f32⟩
  | .hbm, ⟨7, _⟩ => ⟨S1x256, .f32⟩
  | .hbm, ⟨8, _⟩ => ⟨S131072x256, .f32⟩
  | .hbm, ⟨9, _⟩ => ⟨S131072x256, .f32⟩
  | .hbm, ⟨10, _⟩ => ⟨S_, .f32⟩
  | .hbm, ⟨11, _⟩ => ⟨S131072, .f32⟩
  | .hbm, ⟨12, _⟩ => ⟨S131072x1, .f32⟩
  | .hbm, ⟨13, _⟩ => ⟨S_, .f32⟩
  | .hbm, ⟨14, _⟩ => ⟨S131072x1, .f32⟩
  | .hbm, ⟨15, _⟩ => ⟨S131072x1, .f32⟩
  | .hbm, ⟨16, _⟩ => ⟨S131072x256, .f32⟩
  | .hbm, ⟨17, _⟩ => ⟨S_, .f32⟩
  | .hbm, ⟨18, _⟩ => ⟨S131072, .f32⟩
  | .hbm, ⟨19, _⟩ => ⟨S131072x1, .f32⟩
  | .hbm, ⟨20, _⟩ => ⟨S_, .f32⟩
  | .hbm, ⟨21, _⟩ => ⟨S131072x1, .f32⟩
  | .hbm, ⟨22, _⟩ => ⟨S131072x1, .f32⟩
  | .hbm, ⟨23, _⟩ => ⟨S131072x1, .f32⟩
  | .hbm, ⟨24, _⟩ => ⟨S131072x1, .f32⟩
  | .hbm, ⟨25, _⟩ => ⟨S131072x256, .f32⟩
  | .hbm, ⟨26, _⟩ => ⟨S131072x256, .f32⟩
  | .hbm, ⟨27, _⟩ => ⟨S_, .f32⟩
  | .hbm, ⟨28, _⟩ => ⟨S131072x1, .f32⟩
  | .hbm, ⟨29, _⟩ => ⟨S131072x1, .f32⟩
  | .hbm, ⟨30, _⟩ => ⟨S131072x1, .f32⟩
  | .hbm, ⟨31, _⟩ => ⟨S131072x256, .f32⟩
  | .hbm, ⟨32, _⟩ => ⟨S131072x256, .f32⟩
  | .hbm, ⟨33, _⟩ => ⟨S1x256, .f32⟩
  | .hbm, ⟨34, _⟩ => ⟨S131072x256, .f32⟩
  | .hbm, ⟨35, _⟩ => ⟨S131072x256, .f32⟩
  | .hbm, ⟨36, _⟩ => ⟨S1x256, .f32⟩
  | .hbm, ⟨37, _⟩ => ⟨S131072x256, .f32⟩
  | .hbm, ⟨38, _⟩ => ⟨S131072x256, .f32⟩
  | .hbm, ⟨39, _⟩ => ⟨S131072x256, .f32⟩
  | .hbm, ⟨40, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  reducesTo_S131072x256_S131072_d1 : S131072x256.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  dot_S131072x256_S256x256_S131072x256_1_1_0_0_n_n_wf : DotDims.WF S131072x256 S256x256 S131072x256 [1] [1] [0] [0] [] []

variable [Facts₀]

def dot_S131072x256_S256x256_S131072x256_1_1_0_0_n_n : DotDims S131072x256 S256x256 S131072x256 where
  lhsContracting := [1]
  rhsContracting := [1]
  lhsNonContracting := [0]
  rhsNonContracting := [0]
  lhsBatch := []
  rhsBatch := []
  wf := dot_S131072x256_S256x256_S131072x256_1_1_0_0_n_n_wf

class Facts : Prop extends Facts₀ where

variable [Facts]
-- ==== Proof.NormSpec.lean ====
/-
  The function both programs compute, index by index, over the extended reals.

  For a row b of x and a feature n:
    linear b n  = (∑ k, x (b, k) · W (n, k)) + bias n                      (the linear layer, W stored [feature, input])
    rowMean l   = (∑ n, l n) / 256,      rowMeanSq l = (∑ n, l n · l n) / 256
    rowInv l    = rsqrt (rowMeanSq l − rowMean l · rowMean l + ε)
    normed      = ((l n − rowMean l) · (rowInv l · γ n) + β n + y) · y
  where l = linear b is the row of the linear layer's output. The divisor 256 and ε are kept as the f32 words both
  programs print; they are never evaluated. Division and the reciprocal square root are the extended reals' total ones.

  The product of the three factors (l n − mean), inv, γ n is bracketed here as the kernel brackets it; the reference
  brackets it the other way, and the two agree because multiplication of extended reals is associative (no
  finiteness is needed for that).
-/
import Idealize.ShloMosaic.Lib.ValueIdx
import Idealize.ShloMosaic.PureOps.Ideal

noncomputable section

namespace Cert.FusedNorm

open Idealize.ShloMosaic Idealize.ShloMosaic.ValueIdx

/-- The number of features, 256, as the f32 word both programs divide by. -/
abbrev width : EReal := Ideal.ofBits .f32 0x43800000#32
/-- The ε under the square root, as the f32 word both programs add. -/
abbrev eps : EReal := Ideal.ofBits .f32 0x3727C5AC#32

/-- The mean of a row of 256 entries. -/
def rowMean (l : Fin 256 → EReal) : EReal := Ideal.div (∑ n : Fin 256, l n) width
/-- The mean of the squares of a row. -/
def rowMeanSq (l : Fin 256 → EReal) : EReal := Ideal.div (∑ n : Fin 256, l n * l n) width
/-- The reciprocal standard deviation of a row: rsqrt (E[l²] − E[l]² + ε). -/
def rowInv (l : Fin 256 → EReal) : EReal := Ideal.rsqrt (rowMeanSq l - rowMean l * rowMean l + eps)

/-- Entry n of the normalised row, scaled by g, shifted by bt, then (· + yv) · yv. -/
def normed (l : Fin 256 → EReal) (g bt yv : EReal) (n : Fin 256) : EReal :=
  ((l n - rowMean l) * (rowInv l * g) + bt + yv) * yv

/-- The same entry with the three factors bracketed from the left. -/
theorem normed_left (l : Fin 256 → EReal) (g bt yv : EReal) (n : Fin 256) :
    (((l n - rowMean l) * rowInv l) * g + bt + yv) * yv = normed l g bt yv n := by
  unfold normed
  rw [mul_assoc]

/-- The linear layer at row b, feature n: W is stored [feature, input]. -/
def linear (X : (⟨2, ![131072, 256]⟩ : Shape).Idx → EReal) (W : (⟨2, ![256, 256]⟩ : Shape).Idx → EReal)
    (Bs : (⟨1, ![256]⟩ : Shape).Idx → EReal) (b : Fin 131072) (n : Fin 256) : EReal :=
  (∑ k : Fin 256, X (ix2 b k) * W (ix2 n k)) + Bs (ix1 n)

/-- The result at row b, feature n. -/
def fusedAt (X Y : (⟨2, ![131072, 256]⟩ : Shape).Idx → EReal) (W : (⟨2, ![256, 256]⟩ : Shape).Idx → EReal)
    (Bs Gm Bt : (⟨1, ![256]⟩ : Shape).Idx → EReal) (b : Fin 131072) (n : Fin 256) : EReal :=
  normed (linear X W Bs b) (Gm (ix1 n)) (Bt (ix1 n)) (Y (ix2 b n)) n

/-- The whole result array as one function of the six argument arrays. -/
def fused (X Y : (⟨2, ![131072, 256]⟩ : Shape).Idx → EReal) (W : (⟨2, ![256, 256]⟩ : Shape).Idx → EReal)
    (Bs Gm Bt : (⟨1, ![256]⟩ : Shape).Idx → EReal) : (⟨2, ![131072, 256]⟩ : Shape).Idx → EReal :=
  fun i => fusedAt X Y W Bs Gm Bt (i 0) (i 1)

theorem fused_ix2 (X Y : (⟨2, ![131072, 256]⟩ : Shape).Idx → EReal) (W : (⟨2, ![256, 256]⟩ : Shape).Idx → EReal)
    (Bs Gm Bt : (⟨1, ![256]⟩ : Shape).Idx → EReal) (b : Fin 131072) (n : Fin 256) :
    fused X Y W Bs Gm Bt (ix2 b n) = fusedAt X Y W Bs Gm Bt b n := rfl

end Cert.FusedNorm

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.BodyAtIndex.lean ====
/-
  The kernel body's stored value, read at an index of its 4096 × 256 block.

  The body first forms the block of the linear layer, v (p, n) = (∑ k, x (p, k) · Wᵀ (k, n)) + bias (0, n), from its
  block x of 4096 rows, the whole transposed weight Wᵀ and the bias row. Everything after that depends on v only
  through row p: the row's mean and mean of squares (a sum over the 256 lanes divided by 256, kept as a column), the
  reciprocal square root of their combination with ε (still a column), and then, pointwise at (p, q),
  ((v (p, q) − mean p) · (inv p · γ (0, q)) + β (0, q) + y (p, q)) · y (p, q).
  A change of float format is the identity on extended reals, so the casts to bf16 disappear.
-/
import proofs.«166716_j32607391711503_2_alg».proof.Proof.Gen.KernelIdeal.Skeleton
import proofs.«166716_j32607391711503_2_alg».proof.Proof.NormSpec
import proofs.«166716_j32607391711503_2_alg».proof.Proof.LibPlainDot
import proofs.«166716_j32607391711503_2_alg».proof.Proof.LibColumnBroadcast
import proofs.«166716_j32607391711503_2_alg».proof.Proof.LibColumnCast
import Idealize.ShloMosaic.Lib.ValueIdx
import Idealize.ShloMosaic.Lib.ValueLayout
import Idealize.ShloMosaic.Lib.Pipeline.Value
import Idealize.ShloMosaic.PureOps.Ideal.Laws

noncomputable section

namespace Cert.FusedNorm

open Idealize.ShloMosaic Idealize.ShloMosaic.ValueIdx Cert.KernelIdeal Cert.KernelIdeal.Gen

/-! ## The linear layer's block -/

/-- The block of the linear layer as the body computes it: the product of the block of x (cast to bf16) with the
    transposed weight, accumulated from zero, plus the bias row broadcast over the rows. -/
def blockLinear (x0 : FVec Ideal S4096x256 .f32) (x2 : FVec Ideal S256x256 .bf16) (x3 : FVec Ideal S1x256 .f32) :
    FVec Ideal S4096x256 .f32 :=
  addf (matmul dot_S4096x256_S256x256_S4096x256_1_0_0_1_n_n none (truncf .bf16 x0 bitsLt_bf16_f32)
      (shapeCast S256x256 x2 shapeCasts_S256x256_S256x256) (constant (F := Ideal) S4096x256 .f32 0x00000000#32))
    (broadcastTo S4096x256 (shapeCast S1x256 x3 shapeCasts_S1x256_S1x256) broadcasts_S1x256_S4096x256)

/-- At (p, n) it is the sum over k of x (p, k) · Wᵀ (k, n), plus the bias at n. -/
theorem blockLinear_apply (x0 : FVec Ideal S4096x256 .f32) (x2 : FVec Ideal S256x256 .bf16) (x3 : FVec Ideal S1x256 .f32)
    (p : Fin 4096) (n : Fin 256) :
    blockLinear x0 x2 x3 (ix2 p n) = (∑ k : Fin 256, x0 (ix2 p k) * x2 (ix2 k n)) + x3 (ix2 (0 : Fin 1) n) := by
  unfold blockLinear
  rw [addf_apply, shapeCast_self, shapeCast_self, broadcastTo_1b_ab_apply]
  refine congrArg (· + x3 (ix2 (0 : Fin 1) n)) ?_
  exact Cert.Lib.matmul_zero_apply dot_S4096x256_S256x256_S4096x256_1_0_0_1_n_n_wf none
    (truncf .bf16 x0 bitsLt_bf16_f32) x2 p n

/-! ## A row's sum, and a row's average kept as a column -/

/-- The sum over the lanes of row p. -/
theorem laneSum_apply (w : FVec Ideal S4096x256 .f32) (hr : S4096x256.Reduces [1] S4096) (hφ : FKind.Formats .f32)
    (hacc : (0x00000000#32 : BitVec FTy.f32.bits) = FKind.neutral .add .f32 hφ) (p : Fin 4096) :
    multiReduction .add [1] S4096 w 0x00000000#32 hr hφ hacc (ix1 p) = ∑ n : Fin 256, w (ix2 p n) :=
  (Ideal.multiReduction_add_single w 0x00000000#32 hr hφ hacc (ix1 p)).trans
    (Finset.sum_congr rfl fun n _ => congrArg w (funext fun a => Fin.ext (by
      match a with
      | ⟨0, _⟩ => rfl
      | ⟨1, _⟩ => rfl)))

/-- The lanes' sum of row p divided by 256, as the body keeps it: a column read at (p, 0). -/
theorem laneAverage_apply (w : FVec Ideal S4096x256 .f32) (hr : S4096x256.Reduces [1] S4096) (hφ : FKind.Formats .f32)
    (hacc : (0x00000000#32 : BitVec FTy.f32.bits) = FKind.neutral .add .f32 hφ) (hc : S4096.ShapeCasts S4096x1)
    (p : Fin 4096) (u : Fin 1) :
    divf (shapeCast S4096x1 (multiReduction .add [1] S4096 w 0x00000000#32 hr hφ hacc) hc)
        (broadcast S4096x1 (Scalar.ofBits (F := Ideal) .f32 0x43800000#32)) (ix2 p u)
      = Ideal.div (∑ n : Fin 256, w (ix2 p n)) width := by
  rw [divf_apply, Cert.Lib.shapeCast_a_a1_apply]
  exact congrArg (Ideal.div · width) (laneSum_apply w hr hφ hacc p)

/-! ## What follows the linear layer -/

/-- The row means of a block, as a column. -/
def colMean (v : FVec Ideal S4096x256 .f32) : FVec Ideal S4096x1 .f32 :=
  divf (shapeCast S4096x1 (multiReduction .add [1] S4096 v 0x00000000#32 reduces_S4096x256_S4096 (.inl rfl) rfl)
      shapeCasts_S4096_S4096x1) (broadcast S4096x1 (Scalar.ofBits (F := Ideal) .f32 0x43800000#32))

/-- The row means of the squares, as a column. -/
def colMeanSq (v : FVec Ideal S4096x256 .f32) : FVec Ideal S4096x1 .f32 :=
  divf (shapeCast S4096x1 (multiReduction .add [1] S4096 (mulf v v) 0x00000000#32 reduces_S4096x256_S4096 (.inl rfl) rfl)
      shapeCasts_S4096_S4096x1) (broadcast S4096x1 (Scalar.ofBits (F := Ideal) .f32 0x43800000#32))

/-- The rows' reciprocal standard deviations, as a column. -/
def colInv (v : FVec Ideal S4096x256 .f32) : FVec Ideal S4096x1 .f32 :=
  rsqrt (addf (subf (colMeanSq v) (mulf (colMean v) (colMean v)))
    (broadcast S4096x1 (Scalar.ofBits (F := Ideal) .f32 0x3727C5AC#32)))

/-- The body after the linear layer: normalise, scale by γ, shift by β, then (· + y) · y. -/
def afterLinear (v y : FVec Ideal S4096x256 .f32) (g bt : FVec Ideal S1x256 .f32) : FVec Ideal S4096x256 .f32 :=
  mulf (addf (addf (mulf (subf v (broadcastTo S4096x256 (colMean v) broadcasts_S4096x1_S4096x256))
        (mulf (broadcastTo S4096x256 (colInv v) broadcasts_S4096x1_S4096x256)
          (broadcastTo S4096x256 (shapeCast S1x256 g shapeCasts_S1x256_S1x256) broadcasts_S1x256_S4096x256)))
      (broadcastTo S4096x256 (shapeCast S1x256 bt shapeCasts_S1x256_S1x256) broadcasts_S1x256_S4096x256)) y) y

theorem colMean_apply (v : FVec Ideal S4096x256 .f32) (p : Fin 4096) (u : Fin 1) :
    colMean v (ix2 p u) = rowMean (fun n => v (ix2 p n)) := by
  unfold colMean rowMean
  exact laneAverage_apply v _ _ _ _ p u

theorem colMeanSq_apply (v : FVec Ideal S4096x256 .f32) (p : Fin 4096) (u : Fin 1) :
    colMeanSq v (ix2 p u) = rowMeanSq (fun n => v (ix2 p n)) := by
  unfold colMeanSq rowMeanSq
  exact laneAverage_apply (mulf v v) _ _ _ _ p u

theorem colInv_apply (v : FVec Ideal S4096x256 .f32) (p : Fin 4096) (u : Fin 1) :
    colInv v (ix2 p u) = rowInv (fun n => v (ix2 p n)) := by
  unfold colInv rowInv
  show Ideal.rsqrt (colMeanSq v (ix2 p u) - colMean v (ix2 p u) * colMean v (ix2 p u) + eps) = _
  rw [colMeanSq_apply, colMean_apply]

/-- At (p, q) it is the normalised entry of row p of the block. -/
theorem afterLinear_apply (v y : FVec Ideal S4096x256 .f32) (g bt : FVec Ideal S1x256 .f32) (p : Fin 4096) (q : Fin 256) :
    afterLinear v y g bt (ix2 p q)
      = normed (fun n => v (ix2 p n)) (g (ix2 (0 : Fin 1) q)) (bt (ix2 (0 : Fin 1) q)) (y (ix2 p q)) q := by
  unfold afterLinear normed
  simp only [mulf_apply, addf_apply, subf_apply]
  rw [Cert.Lib.broadcastTo_a1_ab_apply, Cert.Lib.broadcastTo_a1_ab_apply, broadcastTo_1b_ab_apply,
    broadcastTo_1b_ab_apply, shapeCast_self, shapeCast_self, colMean_apply, colInv_apply]

/-! ## The body's stored value -/

/-- The payload of the body's one store is the linear layer's block followed by the normalisation. -/
theorem payload_eq (x0 x1 : FVec Ideal S4096x256 .f32) (x2 : FVec Ideal S256x256 .bf16) (x3 x4 x5 : FVec Ideal S1x256 .f32) :
    k0_pay1 (F := Ideal) x0 x1 x2 x3 x4 x5 = afterLinear (blockLinear x0 x2 x3) x1 x4 x5 := rfl

/-- THE BODY AT AN INDEX: entry (p, q) of what the body stores, from the blocks it loads. -/
theorem payload_apply (x0 x1 : FVec Ideal S4096x256 .f32) (x2 : FVec Ideal S256x256 .bf16) (x3 x4 x5 : FVec Ideal S1x256 .f32)
    (p : Fin 4096) (q : Fin 256) :
    k0_pay1 (F := Ideal) x0 x1 x2 x3 x4 x5 (ix2 p q)
      = normed (fun n => (∑ k : Fin 256, x0 (ix2 p k) * x2 (ix2 k n)) + x3 (ix2 (0 : Fin 1) n))
          (x4 (ix2 (0 : Fin 1) q)) (x5 (ix2 (0 : Fin 1) q)) (x1 (ix2 p q)) q := by
  rw [payload_eq, afterLinear_apply]
  exact congrArg (fun l => normed l (x4 (ix2 (0 : Fin 1) q)) (x5 (ix2 (0 : Fin 1) q)) (x1 (ix2 p q)) q)
    (funext fun n => blockLinear_apply x0 x2 x3 p n)

/-- The same entry against the whole arrays: when the loaded blocks are the stated pieces of the argument arrays
    (row p of the block of x is row b of x, likewise y; the weight block is the transposed weight; the three rows
    are the bias, γ and β), entry (p, q) of what the body stores is the result at row b, feature q. -/
theorem payload_eq_fusedAt (X Y : (⟨2, ![131072, 256]⟩ : Shape).Idx → EReal) (W : (⟨2, ![256, 256]⟩ : Shape).Idx → EReal)
    (Bs Gm Bt : (⟨1, ![256]⟩ : Shape).Idx → EReal)
    (x0 x1 : FVec Ideal S4096x256 .f32) (x2 : FVec Ideal S256x256 .bf16) (x3 x4 x5 : FVec Ideal S1x256 .f32)
    (b : Fin 131072) (p : Fin 4096) (q : Fin 256)
    (h0 : ∀ k : Fin 256, x0 (ix2 p k) = X (ix2 b k))
    (h1 : x1 (ix2 p q) = Y (ix2 b q))
    (h2 : ∀ k n : Fin 256, x2 (ix2 k n) = W (ix2 n k))
    (h3 : ∀ n : Fin 256, x3 (ix2 (0 : Fin 1) n) = Bs (ix1 n))
    (h4 : ∀ n : Fin 256, x4 (ix2 (0 : Fin 1) n) = Gm (ix1 n))
    (h5 : ∀ n : Fin 256, x5 (ix2 (0 : Fin 1) n) = Bt (ix1 n)) :
    k0_pay1 (F := Ideal) x0 x1 x2 x3 x4 x5 (ix2 p q) = fusedAt X Y W Bs Gm Bt b q := by
  rw [payload_apply]
  unfold fusedAt
  rw [h1, h4 q, h5 q]
  refine congrArg (fun l => normed l (Gm (ix1 q)) (Bt (ix1 q)) (Y (ix2 b q)) q) (funext fun n => ?_)
  unfold linear
  rw [h3 n]
  exact congrArg (· + Bs (ix1 n)) (Finset.sum_congr rfl fun k _ => by rw [h0 k, h2 k n])

end Cert.FusedNorm

end
-- ==== Proof.HostPrefix.lean ====
/-
  What the region finds in the four arrays the host prepares before the call.

  The weight W, stored [feature, input], is transposed and cast to bf16: the region finds Wᵀ, whose entry (k, n) is
  W (n, k) (the cast is the identity on extended reals). The bias, γ and β, each a vector of 256 entries, are
  reshaped to one row of 256: entry (0, n) of the row is entry n of the vector.
-/
import proofs.«166716_j32607391711503_2_alg».proof.Proof.Gen.KernelIdeal.Frame
import Idealize.ShloMosaic.Lib.StableHlo.Run
import Idealize.ShloMosaic.Lib.ValueIdx
import Idealize.ShloMosaic.Lib.ValueLayout

noncomputable section

namespace Cert.FusedNorm

open Idealize.ShloMosaic Idealize.ShloMosaic.TcCoe Idealize.ShloMosaic.ValueIdx Idealize.SL.Sem
open Idealize.ShloMosaic.StableHlo Cert.KernelIdeal Cert.KernelIdeal.Gen

variable (m : (ℓ : Loc nD τ sig) → Buf (Elt Ideal) ℓ)

/-- The region finds the transposed weight. -/
theorem weightT_eq (c : Dev nD) :
    (V m c main_v1 : S256x256.Idx → EReal)
      = truncf (F := Ideal) .bf16
          (transpose S256x256 [1, 0] (m ((c : Thread nD τ).loc main_arg2)) transposes_S256x256_S256x256_1_0)
          bitsLt_bf16_f32 := by
  dsimp only [V, hostOps0]
  after_results

/-- Entry (k, n) of what the region finds as the weight is W (n, k). -/
theorem weightT_apply (c : Dev nD) (k n : Fin 256) :
    (V m c main_v1 : S256x256.Idx → EReal) (ix2 k n) = m ((c : Thread nD τ).loc main_arg2) (ix2 n k) := by
  rw [weightT_eq]
  exact transpose_ix2_apply (m ((c : Thread nD τ).loc main_arg2)) transposes_S256x256_S256x256_1_0 k n

/-- The region finds the bias as one row. -/
theorem biasRow_eq (c : Dev nD) :
    (V m c main_v2 : S1x256.Idx → EReal) = shapeCast S1x256 (m ((c : Thread nD τ).loc main_arg3)) shapeCasts_S256_S1x256 := by
  dsimp only [V, hostOps0]
  after_results
  rfl

theorem biasRow_apply (c : Dev nD) (n : Fin 256) :
    (V m c main_v2 : S1x256.Idx → EReal) (ix2 (0 : Fin 1) n) = m ((c : Thread nD τ).loc main_arg3) (ix1 n) := by
  rw [biasRow_eq]
  exact shapeCast_a_1a_apply (m ((c : Thread nD τ).loc main_arg3)) shapeCasts_S256_S1x256 0 n

/-- The region finds γ as one row. -/
theorem gammaRow_eq (c : Dev nD) :
    (V m c main_v3 : S1x256.Idx → EReal) = shapeCast S1x256 (m ((c : Thread nD τ).loc main_arg4)) shapeCasts_S256_S1x256 := by
  dsimp only [V, hostOps0]
  after_results
  rfl

theorem gammaRow_apply (c : Dev nD) (n : Fin 256) :
    (V m c main_v3 : S1x256.Idx → EReal) (ix2 (0 : Fin 1) n) = m ((c : Thread nD τ).loc main_arg4) (ix1 n) := by
  rw [gammaRow_eq]
  exact shapeCast_a_1a_apply (m ((c : Thread nD τ).loc main_arg4)) shapeCasts_S256_S1x256 0 n

/-- The region finds β as one row. -/
theorem betaRow_eq (c : Dev nD) :
    (V m c main_v4 : S1x256.Idx → EReal) = shapeCast S1x256 (m ((c : Thread nD τ).loc main_arg5)) shapeCasts_S256_S1x256 := by
  dsimp only [V, hostOps0]
  after_results
  rfl

theorem betaRow_apply (c : Dev nD) (n : Fin 256) :
    (V m c main_v4 : S1x256.Idx → EReal) (ix2 (0 : Fin 1) n) = m ((c : Thread nD τ).loc main_arg5) (ix1 n) := by
  rw [betaRow_eq]
  exact shapeCast_a_1a_apply (m ((c : Thread nD τ).loc main_arg5)) shapeCasts_S256_S1x256 0 n

end Cert.FusedNorm

end
-- ==== Proof.KernelArray.lean ====
/-
  The kernel's result array, as one function of the six arguments.

  The grid has 32 points. At point t the body sees rows 4096·t … 4096·t + 4095 of x and of y (all 256 columns), the
  whole transposed weight, and the bias, γ and β rows; it writes rows 4096·t … 4096·t + 4095 of the result. So entry
  (p, q) of what point t writes back is the result at row 4096·t + p, feature q; the 32 blocks of rows tile the
  131072 rows (row r lies in block r / 4096), and the array ends as the one function of the arguments.
-/
import proofs.«166716_j32607391711503_2_alg».proof.Proof.Gen.KernelIdeal.Value
import proofs.«166716_j32607391711503_2_alg».proof.Proof.BodyAtIndex
import proofs.«166716_j32607391711503_2_alg».proof.Proof.HostPrefix
import Idealize.ShloMosaic.Lib.Pipeline.Value

noncomputable section

namespace Cert.FusedNorm

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The result array the kernel should end with: the specification at the arguments as launched. -/
abbrev result (c : Dev nD) : S131072x256.Idx → EReal :=
  fused (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## Where each window's block sits at a grid point -/

/-- The blocks of x and y move down the rows with the output's block and stay at column block 0; the weight and the
    three rows stay at block (0, 0); the output's row block is at most 31. Decided over the 32 points. -/
theorem blockIndices : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 31 ∧ win0_6.index t (1 : Fin 2) = 0 :=
  (by decide +kernel : ∀ t : Fin grid0.N, _)

/-- Every one of the 32 row blocks is some point's. -/
theorem everyRowBlock : ∀ r : Fin 32, ∃ t : Fin cfg0.N, win0_6.index t = ![r.val, 0] :=
  (by decide +kernel : ∀ r : Fin 32, ∃ t : Fin grid0.N, win0_6.index t = ![r.val, 0])

/-! ## A block's entry is an entry of its array -/

/-- Row p of the block of x at point t is row b of x, when b is that row of the array. -/
theorem xBlock_apply (c : Dev nD) (t : Fin cfg0.N) (p : Fin 4096) (k : Fin 256) (b : Fin 131072)
    (hb : b.val = win0_6.index t (0 : Fin 2) * 4096 + p.val) :
    iblk m c 0 t (ix2 p k) = m ((c : Thread nD τ).loc main_arg0) (ix2 b k) := by
  obtain ⟨e0, e1, -⟩ := blockIndices t
  rw [← V_main_arg0 m c]
  show V m c main_arg0 (((cfg0.win 0).blk t).view.emb (ix2 p k)) = V m c main_arg0 (ix2 b k)
  refine congrArg (V m c main_arg0) (funext fun a => Fin.ext ?_)
  match a with
  | ⟨0, _⟩ => show win0_0.index t (0 : Fin 2) * 4096 + 1 * p.val = b.val; omega
  | ⟨1, _⟩ => show win0_0.index t (1 : Fin 2) * 256 + 1 * k.val = k.val; omega

/-- Likewise for the block of y. -/
theorem yBlock_apply (c : Dev nD) (t : Fin cfg0.N) (p : Fin 4096) (k : Fin 256) (b : Fin 131072)
    (hb : b.val = win0_6.index t (0 : Fin 2) * 4096 + p.val) :
    iblk m c 1 t (ix2 p k) = m ((c : Thread nD τ).loc main_arg1) (ix2 b k) := by
  obtain ⟨-, -, e0, e1, -⟩ := blockIndices t
  rw [← V_main_arg1 m c]
  show V m c main_arg1 (((cfg0.win 1).blk t).view.emb (ix2 p k)) = V m c main_arg1 (ix2 b k)
  refine congrArg (V m c main_arg1) (funext fun a => Fin.ext ?_)
  match a with
  | ⟨0, _⟩ => show win0_1.index t (0 : Fin 2) * 4096 + 1 * p.val = b.val; omega
  | ⟨1, _⟩ => show win0_1.index t (1 : Fin 2) * 256 + 1 * k.val = k.val; omega

/-- The weight block at every point is the whole transposed weight: entry (k, n) is W (n, k). -/
theorem weightBlock_apply (c : Dev nD) (t : Fin cfg0.N) (k n : Fin 256) :
    iblk m c 2 t (ix2 k n) = m ((c : Thread nD τ).loc main_arg2) (ix2 n k) := by
  obtain ⟨-, -, -, -, e0, e1, -⟩ := blockIndices t
  rw [← weightT_apply m c k n]
  show V m c main_v1 (((cfg0.win 2).blk t).view.emb (ix2 k n)) = V m c main_v1 (ix2 k n)
  refine congrArg (V m c main_v1) (funext fun a => Fin.ext ?_)
  match a with
  | ⟨0, _⟩ => show win0_2.index t (0 : Fin 2) * 256 + 1 * k.val = k.val; omega
  | ⟨1, _⟩ => show win0_2.index t (1 : Fin 2) * 256 + 1 * n.val = n.val; omega

/-- The bias block at every point is the whole bias row. -/
theorem biasBlock_apply (c : Dev nD) (t : Fin cfg0.N) (n : Fin 256) :
    iblk m c 3 t (ix2 (0 : Fin 1) n) = m ((c : Thread nD τ).loc main_arg3) (ix1 n) := by
  obtain ⟨-, -, -, -, -, -, e0, e1, -⟩ := blockIndices t
  rw [← biasRow_apply m c n]
  show V m c main_v2 (((cfg0.win 3).blk t).view.emb (ix2 (0 : Fin 1) n)) = V m c main_v2 (ix2 (0 : Fin 1) n)
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 256 + 1 * n.val = n.val; omega

/-- The γ block at every point is the whole γ row. -/
theorem gammaBlock_apply (c : Dev nD) (t : Fin cfg0.N) (n : Fin 256) :
    iblk m c 4 t (ix2 (0 : Fin 1) n) = m ((c : Thread nD τ).loc main_arg4) (ix1 n) := by
  obtain ⟨-, -, -, -, -, -, -, -, e0, e1, -⟩ := blockIndices t
  rw [← gammaRow_apply m c n]
  show V m c main_v3 (((cfg0.win 4).blk t).view.emb (ix2 (0 : Fin 1) n)) = V m c main_v3 (ix2 (0 : Fin 1) n)
  refine congrArg (V m c main_v3) (funext fun a => Fin.ext ?_)
  match a with
  | ⟨0, _⟩ => show win0_4.index t (0 : Fin 2) * 1 + 1 * 0 = 0; omega
  | ⟨1, _⟩ => show win0_4.index t (1 : Fin 2) * 256 + 1 * n.val = n.val; omega

/-- The β block at every point is the whole β row. -/
theorem betaBlock_apply (c : Dev nD) (t : Fin cfg0.N) (n : Fin 256) :
    iblk m c 5 t (ix2 (0 : Fin 1) n) = m ((c : Thread nD τ).loc main_arg5) (ix1 n) := by
  obtain ⟨-, -, -, -, -, -, -, -, -, -, e0, e1, -⟩ := blockIndices t
  rw [← betaRow_apply m c n]
  show V m c main_v4 (((cfg0.win 5).blk t).view.emb (ix2 (0 : Fin 1) n)) = V m c main_v4 (ix2 (0 : Fin 1) n)
  refine congrArg (V m c main_v4) (funext fun a => Fin.ext ?_)
  match a with
  | ⟨0, _⟩ => show win0_5.index t (0 : Fin 2) * 1 + 1 * 0 = 0; omega
  | ⟨1, _⟩ => show win0_5.index t (1 : Fin 2) * 256 + 1 * n.val = n.val; omega

/-! ## What a point writes back -/

/-- Entry (p, q) of what point t writes back is the result at row 4096·t + p, feature q. -/
theorem written_apply (c : Dev nD) (t : Fin cfg0.N) (p : Fin 4096) (q : Fin 256) :
    k0_pay1 (F := Ideal) (iblk m c 0 t) (iblk m c 1 t) (iblk m c 2 t) (iblk m c 3 t) (iblk m c 4 t) (iblk m c 5 t) (ix2 p q)
      = result m c (((cfg0.win 6).blk t).view.emb (ix2 p q)) := by
  obtain ⟨-, -, -, -, -, -, -, -, -, -, -, -, e6, e7⟩ := blockIndices t
  have hp : p.val < 4096 := p.isLt
  have hrow : win0_6.index t (0 : Fin 2) * 4096 + p.val < 131072 := by omega
  have hemb : ((cfg0.win 6).blk t).view.emb (ix2 p q)
      = ix2 (⟨win0_6.index t (0 : Fin 2) * 4096 + p.val, hrow⟩ : Fin 131072) q :=
    funext fun a => Fin.ext (by
      match a with
      | ⟨0, _⟩ => show win0_6.index t (0 : Fin 2) * 4096 + 1 * p.val = win0_6.index t (0 : Fin 2) * 4096 + p.val; omega
      | ⟨1, _⟩ => show win0_6.index t (1 : Fin 2) * 256 + 1 * q.val = q.val; omega)
  rw [hemb]
  exact payload_eq_fusedAt _ _ _ _ _ _ (iblk m c 0 t) (iblk m c 1 t) (iblk m c 2 t) (iblk m c 3 t) (iblk m c 4 t)
    (iblk m c 5 t) ⟨win0_6.index t (0 : Fin 2) * 4096 + p.val, hrow⟩ p q
    (fun k => xBlock_apply m c t p k _ rfl) (yBlock_apply m c t p q _ rfl) (fun k n => weightBlock_apply m c t k n)
    (fun n => biasBlock_apply m c t n) (fun n => gammaBlock_apply m c t n) (fun n => betaBlock_apply m c t n)

/-- WHAT POINT t WRITES BACK is block t of the result. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero zeroOffsets]
  simp only [View.ld_unit_zero (S := S4096x256) zeroOffsets, View.ld_unit_zero (S := S256x256) zeroOffsets,
    View.ld_unit_zero (S := S1x256) zeroOffsets]
  funext y
  obtain ⟨p, q, rfl⟩ : ∃ (p : Fin 4096) (q : Fin 256), y = ix2 p q := ⟨y 0, y 1, eq_ix2 y⟩
  exact written_apply m c t p q

/-! ## The blocks tile the rows -/

/-- An index of the array is in point t's block iff each coordinate is in the block's range on its axis. -/
theorem mem_block (t : Fin cfg0.N) (i : S131072x256.Idx) :
    i ∈ ((cfg0.win 6).blk t).view.set ↔ ∀ a : Fin 2, win0_6.index t a * S4096x256.size a ≤ (i a).val
      ∧ (i a).val < win0_6.index t a * S4096x256.size a + S4096x256.size a := by
  show i ∈ ((View.whole main_v5).slice (win0_6.rect t)).set ↔ _
  rw [View.set_slice_whole, Rect.mem_set_unit]
  exact Iff.rfl

/-- Row r lies in the block of point r / 4096: every index of the array is written by some point. -/
theorem covered (i : S131072x256.Idx) :
    ∃ t : Fin cfg0.N, (cfg0.win 6).flush t = true ∧ i ∈ ((cfg0.win 6).blk t).view.set := by
  have hi0 : (i 0).val < 131072 := (i 0).isLt
  have hi1 : (i 1).val < 256 := (i 1).isLt
  obtain ⟨t, ht⟩ := everyRowBlock ⟨(i 0).val / 4096, by omega⟩
  have q0 : win0_6.index t (0 : Fin 2) = (i 0).val / 4096 := congrFun ht 0
  have q1 : win0_6.index t (1 : Fin 2) = 0 := congrFun ht 1
  refine ⟨t, flush0_6 t, ?_⟩
  rw [mem_block]
  intro a
  match a with
  | ⟨0, _⟩ =>
    show win0_6.index t (0 : Fin 2) * 4096 ≤ (i 0).val ∧ (i 0).val < win0_6.index t (0 : Fin 2) * 4096 + 4096
    omega
  | ⟨1, _⟩ =>
    show win0_6.index t (1 : Fin 2) * 256 ≤ (i 1).val ∧ (i 1).val < win0_6.index t (1 : Fin 2) * 256 + 256
    omega

/-! ## The array after the run -/

/-- THE ARRAY after the run is the specification at the arguments as launched. -/
theorem final (c : Dev nD) : (dats m 0 c).arrAt 6 cfg0.N = result m c :=
  (dats m 0 c).arrAt_eq_of_cover 6 (result m c) (fun t _ => flushed_eq m c t) covered

/-- The kernel's run: every weakly fair execution terminates with the result array at the specification and the
    arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.FusedNorm

end
-- ==== Proof.ReferenceIsSpec.lean ====
/-
  The reference computes the same function.

  Read one operation at a time, the reference forms lin (b, n) = (∑ k, x (b, k) · W (n, k)) + bias n over the whole
  array (its dot_general contracts the second axis of both operands, so no transpose is needed), the row's mean and
  mean of squares (0 plus the sum over the 256 features, divided by 256), inv = rsqrt (msq − mean · mean + ε), and
  returns (((lin − mean) · inv) · γ n + β n + y) · y. The only difference from the specification is the bracketing
  of the product of three factors; multiplication of extended reals is associative.
-/
import proofs.«166716_j32607391711503_2_alg».proof.Proof.Gen.ReferenceIdeal.Read
import proofs.«166716_j32607391711503_2_alg».proof.Proof.NormSpec
import Idealize.ShloMosaic.Lib.ValueIdx
import Idealize.ShloMosaic.PureOps.Ideal.Laws

noncomputable section

namespace Cert.FusedNorm

open Idealize.ShloMosaic Idealize.ShloMosaic.ValueIdx Cert.ReferenceIdeal Cert.ReferenceIdeal.Read

variable (x0 x1 : S131072x256.Idx → EReal) (x2 : S256x256.Idx → EReal) (x3 x4 x5 : S256.Idx → EReal)

/-- The reference's linear layer at (b, n). -/
theorem ref_linear (b : Fin 131072) (n : Fin 256) :
    val_main_v3 (F := Ideal) x0 x2 x3 (ix2 b n) = linear x0 x2 x3 b n := by
  rw [val_main_v3_apply, val_main_v0_apply, val_main_v2_apply, val_main_v1_apply]
  have el : ∀ k : Fin 256, lidx_main_v0 (ix2 b n) k = ix2 b k := fun k =>
    funext fun a => Fin.ext (by match a with | ⟨0, _⟩ => rfl | ⟨1, _⟩ => rfl)
  have er : ∀ k : Fin 256, ridx_main_v0 (ix2 b n) k = ix2 n k := fun k =>
    funext fun a => Fin.ext (by match a with | ⟨0, _⟩ => rfl | ⟨1, _⟩ => rfl)
  have eb : idx_main_v1 (idx_main_v2 (ix2 b n)) = ix1 n :=
    funext fun a => Fin.ext (by match a with | ⟨0, _⟩ => rfl)
  simp only [el, er, eb]
  rfl

/-- Row b of the reference's linear layer, summed over the features through the reduce's own index map. -/
theorem ref_rowIdx (b : Fin 131072) (u : Fin 1) (k : Fin 256) :
    idx_main_v4 (idx_main_v5 (ix2 b u)) k = ix2 b k :=
  funext fun a => Fin.ext (by match a with | ⟨0, _⟩ => rfl | ⟨1, _⟩ => rfl)

/-- The reference's row mean, a column read at (b, 0). -/
theorem ref_mean (b : Fin 131072) (u : Fin 1) :
    val_main_v7 (F := Ideal) x0 x2 x3 (ix2 b u) = rowMean (linear x0 x2 x3 b) := by
  rw [val_main_v7_apply, val_main_v5_apply, val_main_v4_apply, val_main_v6_apply, val_main_cst_0_apply,
    val_main_cst_apply]
  simp only [Ideal.hostDivf_def, Ideal.ofBits_def, Ideal.ofBits_zero_f32, zero_add]
  unfold rowMean
  refine congrArg (Ideal.div · width) (Finset.sum_congr rfl fun k _ => ?_)
  rw [ref_rowIdx, ref_linear]

/-- The reference's row mean of squares. -/
theorem ref_meanSq (b : Fin 131072) (u : Fin 1) :
    val_main_v12 (F := Ideal) x0 x2 x3 (ix2 b u) = rowMeanSq (linear x0 x2 x3 b) := by
  rw [val_main_v12_apply, val_main_v10_apply, val_main_v9_apply, val_main_v11_apply, val_main_cst_2_apply,
    val_main_cst_1_apply]
  simp only [Ideal.hostDivf_def, Ideal.ofBits_def, Ideal.ofBits_zero_f32, zero_add]
  unfold rowMeanSq
  refine congrArg (Ideal.div · width) (Finset.sum_congr rfl fun k _ => ?_)
  have e : idx_main_v9 (idx_main_v10 (ix2 b u)) k = ix2 b k :=
    funext fun a => Fin.ext (by match a with | ⟨0, _⟩ => rfl | ⟨1, _⟩ => rfl)
  rw [e, val_main_v8_apply, ref_linear]
  rfl

/-- The reference's reciprocal standard deviation of row b. -/
theorem ref_inv (b : Fin 131072) (u : Fin 1) :
    val_main_v19 (F := Ideal) x0 x2 x3 (ix2 b u) = rowInv (linear x0 x2 x3 b) := by
  rw [val_main_v19_apply, val_main_v18_apply, val_main_v14_apply, val_main_v13_apply, val_main_v17_apply,
    val_main_cst_3_apply, ref_meanSq, ref_mean]
  rfl

/-- THE REFERENCE IS THE SPECIFICATION: its last stage is `fused` of the six arguments. -/
theorem reference_eq : val_main_v29 (F := Ideal) x0 x1 x2 x3 x4 x5 = fused x0 x1 x2 x3 x4 x5 := by
  funext i
  obtain ⟨b, n, rfl⟩ : ∃ (b : Fin 131072) (n : Fin 256), i = ix2 b n := ⟨i 0, i 1, eq_ix2 i⟩
  rw [fused_ix2]
  have e15 : idx_main_v15 (ix2 b n) = ix2 b (0 : Fin 1) :=
    funext fun a => Fin.ext (by match a with | ⟨0, _⟩ => rfl | ⟨1, _⟩ => rfl)
  have e20 : idx_main_v20 (ix2 b n) = ix2 b (0 : Fin 1) :=
    funext fun a => Fin.ext (by match a with | ⟨0, _⟩ => rfl | ⟨1, _⟩ => rfl)
  have e23 : idx_main_v22 (idx_main_v23 (ix2 b n)) = ix1 n :=
    funext fun a => Fin.ext (by match a with | ⟨0, _⟩ => rfl)
  have e26 : idx_main_v25 (idx_main_v26 (ix2 b n)) = ix1 n :=
    funext fun a => Fin.ext (by match a with | ⟨0, _⟩ => rfl)
  rw [val_main_v29_apply, val_main_v28_apply, val_main_v27_apply, val_main_v24_apply, val_main_v21_apply,
    val_main_v16_apply, val_main_v15_apply, val_main_v20_apply, val_main_v23_apply, val_main_v22_apply,
    val_main_v26_apply, val_main_v25_apply, e15, e20, e23, e26, ref_mean, ref_inv, ref_linear]
  exact normed_left (linear x0 x2 x3 b) (x4 (ix1 n)) (x5 (ix1 n)) (x1 (ix2 b n)) n

end Cert.FusedNorm

end
-- ==== Proof.lean ====
/-
  Linear layer, layer normalisation over the 256 features, then (· + y) · y, on f32[131072, 256].

  The kernel walks the rows in 32 blocks of 4096. For a row b and a feature n it forms
    lin b n = (∑ k, x b k · Wᵀ k n) + bias n,     Wᵀ k n = W n k (transposed on the host, before the call),
    mean b  = (∑ n, lin b n) / 256,   msq b = (∑ n, lin b n · lin b n) / 256,
    inv b   = rsqrt (msq b − mean b · mean b + ε),
  and stores ((lin b n − mean b) · (inv b · γ n) + β n + y b n) · y b n.
  The reference computes the same lin, mean, msq, inv over the whole array and returns
    (((lin b n − mean b) · inv b) · γ n + β n + y b n) · y b n.
  The two differ only in how the product of three factors is bracketed, and multiplication of extended reals is
  associative without any finiteness assumption, so the precondition is never opened. The casts to bf16 around the
  kernel's matrix product are the identity on extended reals, and sums may be taken in any order.

  NormSpec states the function; BodyAtIndex reads the kernel body's stored value at an index; HostPrefix reads what
  the host prepares before the call; KernelArray assembles the 32 written blocks into the whole array;
  ReferenceIsSpec reads the reference one operation at a time. Here the two runs are set side by side.
-/
import proofs.«166716_j32607391711503_2_alg».proof.Defs
import proofs.«166716_j32607391711503_2_alg».proof.Proof.Gen.Kernel
import proofs.«166716_j32607391711503_2_alg».proof.Proof.Gen.Kernel.Skeleton
import proofs.«166716_j32607391711503_2_alg».proof.Proof.Gen.Kernel.Launch
import proofs.«166716_j32607391711503_2_alg».proof.Proof.Gen.Kernel.Points
import proofs.«166716_j32607391711503_2_alg».proof.Proof.Gen.Kernel.Frame
import proofs.«166716_j32607391711503_2_alg».proof.Proof.Gen.KernelIdeal
import proofs.«166716_j32607391711503_2_alg».proof.Proof.Gen.KernelIdeal.Skeleton
import proofs.«166716_j32607391711503_2_alg».proof.Proof.Gen.KernelIdeal.Launch
import proofs.«166716_j32607391711503_2_alg».proof.Proof.Gen.KernelIdeal.Points
import proofs.«166716_j32607391711503_2_alg».proof.Proof.Gen.KernelIdeal.Frame
import proofs.«166716_j32607391711503_2_alg».proof.Proof.Gen.KernelIdeal.Value
import proofs.«166716_j32607391711503_2_alg».proof.Proof.Gen.ReferenceIdeal
import proofs.«166716_j32607391711503_2_alg».proof.Proof.Gen.ReferenceIdeal.Run
import proofs.«166716_j32607391711503_2_alg».proof.Proof.Gen.ReferenceIdeal.Read
import proofs.«166716_j32607391711503_2_alg».proof.Proof.Gen.Pre_finite_inputs
import proofs.«166716_j32607391711503_2_alg».proof.Proof.KernelArray
import proofs.«166716_j32607391711503_2_alg».proof.Proof.ReferenceIsSpec
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the specification of its arguments, and so does the
    reference's, from arguments that agree. -/
theorem algebraic : Cert.algebraic_KernelIdeal_ReferenceIdeal := by
  intro m ρ m' ρ' _ hagree
  refine ⟨fun c => Cert.FusedNorm.result m c, Cert.FusedNorm.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.FusedNorm.reference_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
